-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x96x96x96 : Shape := ⟨5, ![16, 4, 96, 96, 96]⟩
abbrev S_ : Shape := ⟨0, ![]⟩

class Facts : Prop where
  bcast_S_S16x4x96x96x96 : S_.BroadcastsInDim S16x4x96x96x96 (![] : Fin 0 → Fin S16x4x96x96x96.rank)
  reducesTo_S16x4x96x96x96_S_d0_1_2_3_4 : S16x4x96x96x96.ReducesTo [0, 1, 2, 3, 4] S_
  h_S_ : 0 < S_.numel

variable [Facts]

def fn {F : FTy → Type} [FloatOps F] (main_arg0 : FVec F S16x4x96x96x96 .f32) (main_arg1 : FVec F S16x4x96x96x96 .f32) : IVec S_ 1 :=
  let main_v0 : FVec F S16x4x96x96x96 .f32 := Host.absf main_arg0
  let main_cst : FVec F S_ .f32 := constant S_ .f32 0x7F800000#32
  let main_v1 : FVec F S16x4x96x96x96 .f32 := broadcastInDim S16x4x96x96x96 ![] bcast_S_S16x4x96x96x96 main_cst
  let main_v2 : IVec S16x4x96x96x96 1 := cmpf .olt main_v0 main_v1
  let main_c : IVec S_ 1 := constantI S_ 1 1#1
  let main_v3 : IVec S_ 1 := (fun x v => Host.reduce IntOp.andi x v reducesTo_S16x4x96x96x96_S_d0_1_2_3_4 h_S_) main_v2 main_c
  let main_v4 : FVec F S16x4x96x96x96 .f32 := Host.absf main_arg1
  let main_cst_0 : FVec F S_ .f32 := constant S_ .f32 0x7F800000#32
  let main_v5 : FVec F S16x4x96x96x96 .f32 := broadcastInDim S16x4x96x96x96 ![] bcast_S_S16x4x96x96x96 main_cst_0
  let main_v6 : IVec S16x4x96x96x96 1 := cmpf .olt main_v4 main_v5
  let main_c_1 : IVec S_ 1 := constantI S_ 1 1#1
  let main_v7 : IVec S_ 1 := (fun x v => Host.reduce IntOp.andi x v reducesTo_S16x4x96x96x96_S_d0_1_2_3_4 h_S_) main_v6 main_c_1
  let main_v8 : IVec S_ 1 := andi main_v3 main_v7
  main_v8
-- ==== Kernel.lean ====
abbrev S16x4x96x96x96 : Shape := ⟨5, ![16, 4, 96, 96, 96]⟩
abbrev S64x9216x96 : Shape := ⟨3, ![64, 9216, 96]⟩
abbrev S2x1x96 : Shape := ⟨3, ![2, 1, 96]⟩
abbrev S1x9216x96 : Shape := ⟨3, ![1, 9216, 96]⟩
abbrev S1x1x96 : Shape := ⟨3, ![1, 1, 96]⟩
abbrev S1x96 : Shape := ⟨2, ![1, 96]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S16x4x96x96x96, .f32⟩
  | .hbm, ⟨1, _⟩ => ⟨S16x4x96x96x96, .f32⟩
  | .hbm, ⟨2, _⟩ => ⟨S64x9216x96, .f32⟩
  | .hbm, ⟨3, _⟩ => ⟨S64x9216x96, .f32⟩
  | .hbm, ⟨4, _⟩ => ⟨S2x1x96, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S1, .f32⟩
  | .local _ .vmem, ⟨0, _⟩ => ⟨S1x9216x96, .f32⟩
  | .local _ .vmem, ⟨1, _⟩ => ⟨S1x9216x96, .f32⟩
  | .local _ .vmem, ⟨2, _⟩ => ⟨S1x9216x96, .f32⟩
  | .local _ .vmem, ⟨3, _⟩ => ⟨S1x9216x96, .f32⟩
  | .local _ .vmem, ⟨4, _⟩ => ⟨S1x1x96, .f32⟩
  | .local _ .vmem, ⟨5, _⟩ => ⟨S1x1x96, .f32⟩
  | .local _ .vmem, ⟨6, _⟩ => ⟨S1x96, .f32⟩
  | _, _ => ⟨S16x4x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v26 : BitVec 1 := Scalar.cmpi .eq arg1 c31_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x9216x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9216x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x4x96x96x96_S64x9216x96 : S16x4x96x96x96.ShapeCasts S64x9216x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  inb_S1x9216x96_S1x9216x96_0_0_0 : ∀ a, (![0, 0, 0] : Fin 3 → Nat) a + S1x9216x96.size a ≤ S1x9216x96.size a
  h_S1x9216x96 : 0 < S1x9216x96.numel
  shapeCasts_S1x9216x96_S1x9216x96 : S1x9216x96.ShapeCasts S1x9216x96
  reduces_S1x9216x96_S1x96 : S1x9216x96.Reduces [1] S1x96
  reduces_S1x96_S1 : S1x96.Reduces [1] S1
  shapeCasts_S1_S1x1 : S1.ShapeCasts S1x1
  reduces_S1x1_S1 : S1x1.Reduces [0] S1
  shapeCasts_S1x1_S1x1 : S1x1.ShapeCasts S1x1
  broadcasts_S1x1_S1x96 : S1x1.Broadcasts S1x96
  shapeCasts_S1x96_S1x1x96 : S1x96.ShapeCasts S1x1x96
  inb_S1x1x96_S1x1x96_0_0_0 : ∀ a, (![0, 0, 0] : Fin 3 → Nat) a + S1x1x96.size a ≤ S1x1x96.size a
  h_S1x1x96 : 0 < S1x1x96.numel
  slices_S2x1x96_S1x1x1_0_0_0 : S2x1x96.Slices ![0, 0, 0] S1x1x1
  shapeCasts_S1x1x1_S_ : S1x1x1.ShapeCasts S_
  slices_S2x1x96_S1x1x1_1_0_0 : S2x1x96.Slices ![1, 0, 0] S1x1x1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9216x96.size a ≤ S64x9216x96.size a
  hwx0_0 : ∀ i : grid0.Coords, EltTy.bits .f32 = 32 ∨ (Rect.block (s := S64x9216x96) S1x9216x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9216x96.size a ≤ S64x9216x96.size a
  hwx0_1 : ∀ i : grid0.Coords, EltTy.bits .f32 = 32 ∨ (Rect.block (s := S64x9216x96) S1x9216x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x96.size a ≤ S2x1x96.size a
  hwx0_2 : ∀ i : grid0.Coords, EltTy.bits .f32 = 32 ∨ (Rect.block (s := S2x1x96) S1x1x96.size (cc0_transform_2 i) (hinb0_2 i)).WholeWords (EltTy.packing .f32)

variable [Facts₀]

abbrev win0_0 : Pipeline.Window sig grid0 :=
  Pipeline.Window.ofSpec (Memref.whole main_v0) S1x9216x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x9216x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x4x96x96x96 : Shape := ⟨5, ![16, 4, 96, 96, 96]⟩
abbrev S_ : Shape := ⟨0, ![]⟩
abbrev S16x4 : Shape := ⟨2, ![16, 4]⟩
abbrev S1 : Shape := ⟨1, ![1]⟩

abbrev nBuf : Space → Nat
  | .hbm => 24
  | .vmem => 0
  | .smem => 0
  | _ => 0

abbrev bufTy : (tb : Table) → Fin (tcTables nBuf tb) → BufTy
  | .hbm, ⟨0, _⟩ => ⟨S16x4x96x96x96, .f32⟩
  | .hbm, ⟨1, _⟩ => ⟨S16x4x96x96x96, .f32⟩
  | .hbm, ⟨2, _⟩ => ⟨S16x4x96x96x96, .f32⟩
  | .hbm, ⟨3, _⟩ => ⟨S16x4x96x96x96, .f32⟩
  | .hbm, ⟨4, _⟩ => ⟨S_, .f32⟩
  | .hbm, ⟨5, _⟩ => ⟨S16x4, .f32⟩
  | .hbm, ⟨6, _⟩ => ⟨S_, .f32⟩
  | .hbm, ⟨7, _⟩ => ⟨S16x4, .f32⟩
  | .hbm, ⟨8, _⟩ => ⟨S16x4, .f32⟩
  | .hbm, ⟨9, _⟩ => ⟨S16x4x96x96x96, .f32⟩
  | .hbm, ⟨10, _⟩ => ⟨S_, .f32⟩
  | .hbm, ⟨11, _⟩ => ⟨S16x4, .f32⟩
  | .hbm, ⟨12, _⟩ => ⟨S_, .f32⟩
  | .hbm, ⟨13, _⟩ => ⟨S16x4, .f32⟩
  | .hbm, ⟨14, _⟩ => ⟨S16x4, .f32⟩
  | .hbm, ⟨15, _⟩ => ⟨S_, .f32⟩
  | .hbm, ⟨16, _⟩ => ⟨S16x4, .f32⟩
  | .hbm, ⟨17, _⟩ => ⟨S16x4, .f32⟩
  | .hbm, ⟨18, _⟩ => ⟨S16x4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | _, _ => ⟨S16x4x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S16x4x96x96x96_S16x4_d2_3_4 : S16x4x96x96x96.ReducesTo [2, 3, 4] S16x4
  h_S_ : 0 < S_.numel
  bcast_S_S16x4 : S_.BroadcastsInDim S16x4 (![] : Fin 0 → Fin S16x4.rank)
  reducesTo_S16x4_S_d0_1 : S16x4.ReducesTo [0, 1] S_
  shapeCasts_S_S1 : S_.ShapeCasts S1

variable [Facts₀]

class Facts : Prop extends Facts₀ where

variable [Facts]
-- ==== Proof.Payload.lean ====
/-
  The three values the kernel body stores, read at an index on the extended reals.

  At every grid point the body has one channel of each argument in front of it: `x` (input) and `l` (label),
  each a [1, 9216, 96] block. It forms the channel's sum of squared differences and its sum of absolute labels —
  each first along the 9216 rows, then along the 96 lanes, which together is the sum over the whole block — takes
  their quotient, and adds it to every lane of the [1, 96] accumulator. At a core's last point it stores the
  accumulator times 2⁻⁶.
-/
import proofs.«134564_g78099685310900_feedfinal_268_7_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.LossValue

open Idealize.ShloMosaic Idealize.ShloMosaic.ValueIdx Cert.KernelIdeal Cert.KernelIdeal.Gen

/-- A channel block's sum of squared differences. -/
def blockSq (x l : S1x9216x96.Idx → EReal) : EReal := ∑ y : S1x9216x96.Idx, (x y - l y) * (x y - l y)

/-- A channel block's sum of absolute labels. -/
def blockAbs (l : S1x9216x96.Idx → EReal) : EReal := ∑ y : S1x9216x96.Idx, max (l y) (-(l y))

/-- The channel's ratio as the kernel forms it. -/
def blockRatio (x l : S1x9216x96.Idx → EReal) : EReal := Ideal.div (blockSq x l) (blockAbs l)

/-- Summing a [1, 9216, 96] block along its rows and then along its lanes is summing the whole block: the
    second sum runs over every [1, 96] index (its result has one element), and the first sums, at each of those,
    the block indices that project to it — the fibres of the projection partition the block. -/
theorem rows_then_lanes (src : FVec Ideal S1x9216x96 .f32) (h1 : S1x9216x96.Reduces [1] S1x96) (h2 : S1x96.Reduces [1] S1)
    (hφ hφ' : FKind.Formats .f32) (hacc : (0x00000000#32 : BitVec 32) = FKind.add.neutral .f32 hφ)
    (hacc' : (0x00000000#32 : BitVec 32) = FKind.add.neutral .f32 hφ') (k : S1.Idx) :
    multiReduction .add [1] S1 (multiReduction .add [1] S1x96 src 0x00000000#32 h1 hφ hacc) 0x00000000#32 h2 hφ' hacc' k
      = ∑ y : S1x9216x96.Idx, src y := by
  refine (Ideal.multiReduction_add_total _ _ h2 (fun b => by match b with | ⟨0, _⟩ => rfl) hφ' hacc' k).trans ?_
  exact Finset.sum_fiberwise Finset.univ h1.drop src

/-- A sum over the one index of a [1, 1] vector is its element. -/
theorem sum_one_one (f : S1x1.Idx → EReal) : ∑ i : S1x1.Idx, f i = f (ix2 0 0) := by
  rw [sum_idx2 (n0 := 1) (n1 := 1) f, Fin.sum_univ_one, Fin.sum_univ_one]

/-- THE ACCUMULATING STORE: every lane of the accumulator gains the channel's ratio. -/
theorem pay2_apply (x l : FVec Ideal S1x9216x96 .f32) (acc : FVec Ideal S1x96 .f32) (j : S1x96.Idx) :
    k0_pay2 (F := Ideal) x l acc j = acc j + blockRatio x l := by
  have cast11 : ∀ v : FVec Ideal S1 .f32, shapeCast S1x1 v shapeCasts_S1_S1x1 (ix2 0 0) = v (ix1 0) := fun v =>
    shapeCast_apply v shapeCasts_S1_S1x1 (ix2 0 0) (ix1 0)
      (by rw [Shape.rowMajor_val_one, Shape.rowMajor_val_two]; rfl)
  unfold k0_pay2
  simp only [shapeCast_self]
  show acc j + broadcastTo S1x96 _ broadcasts_S1x1_S1x96 j = _
  congr 1
  refine (broadcastTo_apply _ broadcasts_S1x1_S1x96 j (ix2 0 0)
    (fun a => by match a with | ⟨0, _⟩ => rfl | ⟨1, _⟩ => rfl)).trans ?_
  refine (cast11 _).trans ?_
  refine (Ideal.multiReduction_add_total _ _ reduces_S1x1_S1 (fun b => by match b with | ⟨0, _⟩ => rfl) _ _ (ix1 0)).trans ?_
  rw [sum_one_one]
  show Ideal.div (shapeCast S1x1 _ shapeCasts_S1_S1x1 (ix2 0 0)) (shapeCast S1x1 _ shapeCasts_S1_S1x1 (ix2 0 0)) = _
  rw [cast11, cast11]
  exact congrArg₂ Ideal.div (rows_then_lanes _ _ _ _ _ _ _ _) (rows_then_lanes _ _ _ _ _ _ _ _)

/-- THE RESET STORE: zeros. -/
theorem pay1_apply (j : S1x96.Idx) : k0_pay1 (F := Ideal) j = Ideal.ofBits .f32 0x00000000#32 := by
  unfold k0_pay1
  simp only [shapeCast_self]
  rfl

/-- THE FINAL STORE: lane `l` of the [1, 1, 96] output block is lane `l` of the accumulator times the word 2⁻⁶. -/
theorem pay3_apply (v : FVec Ideal S1x96 .f32) (l : Fin 96) :
    k0_pay3 (F := Ideal) v (ix3 0 0 l) = v (ix2 0 l) * Ideal.ofBits .f32 0x3C800000#32 := by
  unfold k0_pay3
  show shapeCast S1x1x96 v shapeCasts_S1x96_S1x1x96 (ix3 0 0 l) * _ = _
  rw [shapeCast_apply v shapeCasts_S1x96_S1x1x96 (ix3 0 0 l) (ix2 0 l)
    (by rw [Shape.rowMajor_val_two, Shape.rowMajor_val_three]; show (0 : ℕ) * 96 + l.val = (0 * 1 + 0) * 96 + l.val; omega)]
  rfl

end Cert.KernelIdeal.LossValue

end
-- ==== Proof.ChannelSums.lean ====
/-
  The specification: per-channel sums of the two argument arrays, and the re-indexings that relate the two
  programs' ways of enumerating a channel's voxels.

  The arguments are [16, 4, 96, 96, 96] arrays: 64 channels (batch × channel) of 96³ voxels. The reference sums a
  channel over the indices that project to it. The kernel first views the array as [64, 9216, 96] — channel
  t = 4·batch + channel, row 96·depth + height, lane width: the same row-major position — and sums a whole
  [1, 9216, 96] block per grid point. The block of channel t enumerates exactly the reference's fibre of
  (t / 4, t % 4), once each.
-/
import Idealize.ShloMosaic.Lib.ValueIdx
import Idealize.ShloMosaic.Lib.Pipeline.Value

noncomputable section

namespace Cert.LossSpec

open Idealize.ShloMosaic Idealize.ShloMosaic.ValueIdx

/-- The argument arrays' shape, the kernel's view of it, one channel's block, and the channel grid. -/
abbrev Arr : Shape := ⟨5, ![16, 4, 96, 96, 96]⟩
abbrev Rows : Shape := ⟨3, ![64, 9216, 96]⟩
abbrev Blk : Shape := ⟨3, ![1, 9216, 96]⟩
abbrev Chan : Shape := ⟨2, ![16, 4]⟩

/-- The (batch, channel) an array index belongs to. -/
def chanOf (i : Arr.Idx) : Chan.Idx :=
  ix2 (n0 := 16) (n1 := 4) ⟨(i 0).val, (i 0).isLt⟩ ⟨(i 1).val, (i 1).isLt⟩

/-- Channel number `t` as (batch, channel) = (t / 4, t % 4). -/
def chan (t : ℕ) : Chan.Idx :=
  ix2 (n0 := 16) (n1 := 4) ⟨t / 4 % 16, Nat.mod_lt _ (by norm_num)⟩ ⟨t % 4, Nat.mod_lt _ (by norm_num)⟩

/-- The voxel of channel `t` at block position `y` = (0, row, lane): depth row / 96, height row % 96, width lane. -/
def vox (t : ℕ) (y : Blk.Idx) : Arr.Idx :=
  ix5 (n0 := 16) (n1 := 4) (n2 := 96) (n3 := 96) (n4 := 96)
    ⟨t / 4 % 16, Nat.mod_lt _ (by norm_num)⟩ ⟨t % 4, Nat.mod_lt _ (by norm_num)⟩
    ⟨(y 1).val / 96, by have : (y 1).val < 9216 := (y 1).isLt; omega⟩
    ⟨(y 1).val % 96, Nat.mod_lt _ (by norm_num)⟩ ⟨(y 2).val, (y 2).isLt⟩

/-- The host's projection of an index onto the axes a sum over axes 2, 3, 4 keeps is its (batch, channel). -/
theorem drop_eq (h : Arr.ReducesTo [2, 3, 4] Chan) (i : Arr.Idx) : h.drop i = chanOf i := by
  funext b
  match b with
  | ⟨0, _⟩ => exact Fin.ext rfl
  | ⟨1, _⟩ => exact Fin.ext rfl

/-- The squared difference and the absolute label at a voxel. -/
def sqDiff (X L : Arr.Idx → EReal) (i : Arr.Idx) : EReal := (X i - L i) * (X i - L i)
def absLab (L : Arr.Idx → EReal) (i : Arr.Idx) : EReal := max (L i) (-(L i))

/-- A channel's two sums, over the voxels that project to it, and their quotient. -/
def chanSq (X L : Arr.Idx → EReal) (j : Chan.Idx) : EReal :=
  ∑ i ∈ Finset.univ.filter (fun i => chanOf i = j), sqDiff X L i
def chanAbs (L : Arr.Idx → EReal) (j : Chan.Idx) : EReal :=
  ∑ i ∈ Finset.univ.filter (fun i => chanOf i = j), absLab L i
def chanRatio (X L : Arr.Idx → EReal) (j : Chan.Idx) : EReal := Ideal.div (chanSq X L j) (chanAbs L j)

/-- The host's sum over axes 2, 3, 4, read at a channel: the initial value plus the sum over the voxels that
    project to the channel. -/
theorem hostSum_eq (h : Arr.ReducesTo [2, 3, 4] Chan) (f : Arr.Idx → EReal) (init : EReal) (j : Chan.Idx) :
    Ideal.hostReduceAdd h f init j = init + ∑ i ∈ Finset.univ.filter (fun i => chanOf i = j), f i := by
  unfold Ideal.hostReduceAdd
  congr 1
  exact Finset.sum_congr (Finset.filter_congr fun i _ => by rw [drop_eq]) fun _ _ => rfl

/-- THE LOSS, as both programs end up holding it: the two halves of the channels' ratios, each sum times 1/64,
    added. -/
def lossVal (X L : Arr.Idx → EReal) : EReal :=
  (∑ s ∈ Finset.range 32, chanRatio X L (chan s)) * ((1 / 64 : ℝ) : EReal)
    + (∑ s ∈ Finset.range 32, chanRatio X L (chan (32 + s))) * ((1 / 64 : ℝ) : EReal)

/-- THE BLOCK IS THE FIBRE: the positions of channel `t`'s block enumerate, once each, the voxels that project to
    (t / 4, t % 4) — row ↦ (row / 96, row % 96) is a bijection from 9216 rows onto 96 × 96. -/
theorem block_sum_eq_fibre (f : Arr.Idx → EReal) (t : ℕ) :
    ∑ y : Blk.Idx, f (vox t y) = ∑ i ∈ Finset.univ.filter (fun i => chanOf i = chan t), f i := by
  refine Finset.sum_bij (fun y _ => vox t y) (fun y _ => ?_) (fun y _ y' _ h => ?_) (fun i hi => ?_) (fun y _ => rfl)
  · rw [Finset.mem_filter]; exact ⟨Finset.mem_univ _, rfl⟩
  · have h2 := congrArg (fun i : Arr.Idx => (i 2).val) h
    have h3 := congrArg (fun i : Arr.Idx => (i 3).val) h
    have h4 := congrArg (fun i : Arr.Idx => (i 4).val) h
    change (y 1).val / 96 = (y' 1).val / 96 at h2
    change (y 1).val % 96 = (y' 1).val % 96 at h3
    change (y 2).val = (y' 2).val at h4
    funext a
    match a with
    | ⟨0, _⟩ =>
      exact Fin.ext (by
        have h0 : (y 0).val < 1 := (y 0).isLt
        have h0' : (y' 0).val < 1 := (y' 0).isLt
        show (y 0).val = (y' 0).val
        omega)
    | ⟨1, _⟩ => exact Fin.ext (by show (y 1).val = (y' 1).val; omega)
    | ⟨2, _⟩ => exact Fin.ext h4
  · rw [Finset.mem_filter] at hi
    have hc := hi.2
    have c0 := congrArg (fun j : Chan.Idx => (j 0).val) hc
    have c1 := congrArg (fun j : Chan.Idx => (j 1).val) hc
    change (i 0).val = t / 4 % 16 at c0
    change (i 1).val = t % 4 at c1
    have b2 : (i 2).val < 96 := (i 2).isLt
    have b3 : (i 3).val < 96 := (i 3).isLt
    refine ⟨ix3 (n0 := 1) (n1 := 9216) (n2 := 96) 0 ⟨96 * (i 2).val + (i 3).val, by omega⟩ ⟨(i 4).val, (i 4).isLt⟩,
      Finset.mem_univ _, ?_⟩
    funext a
    match a with
    | ⟨0, _⟩ => exact Fin.ext c0.symm
    | ⟨1, _⟩ => exact Fin.ext c1.symm
    | ⟨2, _⟩ => exact Fin.ext (by show (96 * (i 2).val + (i 3).val) / 96 = (i 2).val; omega)
    | ⟨3, _⟩ => exact Fin.ext (by show (96 * (i 2).val + (i 3).val) % 96 = (i 3).val; omega)
    | ⟨4, _⟩ => rfl

/-- THE RESHAPE READ: the [64, 9216, 96] view at (t, row, lane) is the array at channel `t`'s voxel — both sit at
    row-major position (t · 9216 + row) · 96 + lane. -/
theorem reshape_read {α : Type} (X : Arr.Idx → α) (h : Arr.ShapeCasts Rows) (k : Rows.Idx) (t : ℕ) (ht : t < 64)
    (y : Blk.Idx) (e0 : (k 0).val = t) (e1 : (k 1).val = (y 1).val) (e2 : (k 2).val = (y 2).val) :
    shapeCast Rows X h k = X (vox t y) := by
  refine shapeCast_apply X h k (vox t y) ?_
  rw [Shape.rowMajor_val_five, Shape.rowMajor_val_three, e0, e1, e2]
  have h1 : (y 1).val < 9216 := (y 1).isLt
  show ((((t / 4 % 16) * 4 + t % 4) * 96 + (y 1).val / 96) * 96 + (y 1).val % 96) * 96 + (y 2).val
    = (t * 9216 + (y 1).val) * 96 + (y 2).val
  omega

/-- THE CHANNELS IN ORDER: a sum over the [16, 4] channel grid is the sum over channel numbers 0 … 63. -/
theorem sum_chan (f : Chan.Idx → EReal) : ∑ j : Chan.Idx, f j = ∑ t ∈ Finset.range 64, f (chan t) :=
  calc ∑ j : Chan.Idx, f j = ∑ a : Fin 16, ∑ b : Fin 4, f (ix2 a b) := sum_idx2 f
    _ = ∑ p : Fin 16 × Fin 4, f (ix2 p.1 p.2) := (Fintype.sum_prod_type' (fun a b => f (ix2 a b))).symm
    _ = ∑ t : Fin 64, f (chan t.val) := Fintype.sum_equiv finProdFinEquiv _ _ (fun p => by
        obtain ⟨a, b⟩ := p
        show f (ix2 a b) = f (chan (b.val + 4 * a.val))
        congr 1
        have ha := a.isLt
        have hb := b.isLt
        funext d
        match d with
        | ⟨0, _⟩ => exact Fin.ext (by show a.val = (b.val + 4 * a.val) / 4 % 16; omega)
        | ⟨1, _⟩ => exact Fin.ext (by show b.val = (b.val + 4 * a.val) % 4; omega))
    _ = ∑ t ∈ Finset.range 64, f (chan t) := Fin.sum_univ_eq_sum_range (fun t => f (chan t)) 64

end Cert.LossSpec

end
-- ==== Proof.Blocks.lean ====
/-
  What a grid point's two input blocks are, in terms of the argument arrays.

  The host reshapes each [16, 4, 96, 96, 96] argument to [64, 9216, 96] before the region; grid point `t` (core
  t / 32, step t % 32) is handed block (32·core + step, 0, 0) = (t, 0, 0) of each: channel `t`. So position
  (0, row, lane) of a point's block is the argument at channel `t`'s voxel (row / 96, row % 96, lane), and the
  block's two sums are the channel's.
-/
import proofs.«134564_g78099685310900_feedfinal_268_7_alg».proof.Proof.Gen.KernelIdeal.Frame
import proofs.«134564_g78099685310900_feedfinal_268_7_alg».proof.Proof.Payload
import proofs.«134564_g78099685310900_feedfinal_268_7_alg».proof.Proof.ChannelSums
import Idealize.ShloMosaic.Lib.Pipeline.Value
import Idealize.ShloMosaic.Lib.StableHlo.Run
import Idealize.ShloMosaic.Lib.Tactic

noncomputable section

namespace Cert.KernelIdeal.LossValue

open Idealize.ShloMosaic Idealize.ShloMosaic.TcCoe Idealize.SL.Sem Cert.KernelIdeal Cert.KernelIdeal.Gen
open Cert.LossSpec

variable (m : (ℓ : Loc nD τ sig) → Buf (Elt Ideal) ℓ)

/-- The printed index maps of the two input windows, decided over the grid: point `t` reads block (t, 0, 0). -/
theorem idx_in : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The region finds, in the first window's array, the input reshaped to [64, 9216, 96]; -/
theorem V_rows0 (c : Dev nD) : (V m c main_v0 : S64x9216x96.Idx → EReal)
    = shapeCast S64x9216x96 (m ((c : Thread nD τ).loc main_arg0)) shapeCasts_S16x4x96x96x96_S64x9216x96 := by
  show StableHlo.after hostOps0 (fun b => m (c, b)) (Proc.devRef .tc main_v0) = _
  after_results
  rfl

/-- and in the second's the label likewise. -/
theorem V_rows1 (c : Dev nD) : (V m c main_v1 : S64x9216x96.Idx → EReal)
    = shapeCast S64x9216x96 (m ((c : Thread nD τ).loc main_arg1)) shapeCasts_S16x4x96x96x96_S64x9216x96 := by
  show StableHlo.after hostOps0 (fun b => m (c, b)) (Proc.devRef .tc main_v1) = _
  after_results
  rfl

/-- Position `y` of point `t`'s input block is the input at channel `t`'s voxel `y`. -/
theorem iblk0_apply (c : Dev nD) (t : Fin cfg0.N) (y : Blk.Idx) :
    iblk m c 0 t y = m ((c : Thread nD τ).loc main_arg0) (vox t.val y) := by
  have ht : t.val < 64 := lt_of_lt_of_eq t.isLt N_0
  obtain ⟨e0, e1, e2, -, -, -⟩ := idx_in t
  unfold iblk
  rw [View.read_apply]
  show V m c main_v0 (((cfg0.win 0).blk t).view.emb y) = _
  rw [V_rows0]
  refine reshape_read _ _ _ t.val ht y ?_ ?_ ?_
  · show win0_0.index t (0 : Fin 3) * 1 + 1 * (y 0).val = t.val
    have h0 : (y 0).val < 1 := (y 0).isLt
    omega
  · show win0_0.index t (1 : Fin 3) * 9216 + 1 * (y 1).val = (y 1).val
    omega
  · show win0_0.index t (2 : Fin 3) * 96 + 1 * (y 2).val = (y 2).val
    omega

/-- The same of the label block. -/
theorem iblk1_apply (c : Dev nD) (t : Fin cfg0.N) (y : Blk.Idx) :
    iblk m c 1 t y = m ((c : Thread nD τ).loc main_arg1) (vox t.val y) := by
  have ht : t.val < 64 := lt_of_lt_of_eq t.isLt N_0
  obtain ⟨-, -, -, e0, e1, e2⟩ := idx_in t
  unfold iblk
  rw [View.read_apply]
  show V m c main_v1 (((cfg0.win 1).blk t).view.emb y) = _
  rw [V_rows1]
  refine reshape_read _ _ _ t.val ht y ?_ ?_ ?_
  · show win0_1.index t (0 : Fin 3) * 1 + 1 * (y 0).val = t.val
    have h0 : (y 0).val < 1 := (y 0).isLt
    omega
  · show win0_1.index t (1 : Fin 3) * 9216 + 1 * (y 1).val = (y 1).val
    omega
  · show win0_1.index t (2 : Fin 3) * 96 + 1 * (y 2).val = (y 2).val
    omega

/-- THE POINT'S RATIO IS THE CHANNEL'S: the block's two sums enumerate the channel's voxels once each. -/
theorem ratio_at (c : Dev nD) (t : Fin cfg0.N) :
    blockRatio (iblk m c 0 t) (iblk m c 1 t)
      = chanRatio (m ((c : Thread nD τ).loc main_arg0)) (m ((c : Thread nD τ).loc main_arg1)) (chan t.val) := by
  unfold blockRatio chanRatio blockSq blockAbs chanSq chanAbs
  refine congrArg₂ Ideal.div ?_ ?_
  · rw [← block_sum_eq_fibre]
    exact Finset.sum_congr rfl fun y _ => by
      rw [iblk0_apply m c t y, iblk1_apply m c t y]
      rfl
  · rw [← block_sum_eq_fibre]
    exact Finset.sum_congr rfl fun y _ => by
      rw [iblk1_apply m c t y]
      rfl

end Cert.KernelIdeal.LossValue

end
-- ==== Proof.Pieces.lean ====
/-
  What each control case of the body leaves behind, as the body's stored values.

  The body has three cases. At a core's first point (A) it zeroes the accumulator and then adds the channel's
  ratio to it; at the middle points (B) it adds the ratio to what the point before left; at the core's last
  point (C) it does the same and also stores the accumulator, scaled, into the output block. The generated frame
  states what each case leaves as the pieces its run found; here each is read back as the payload it is.
-/
import proofs.«134564_g78099685310900_feedfinal_268_7_alg».proof.Proof.Gen.KernelIdeal.Frame
import Idealize.ShloMosaic.Lib.Pipeline.Value
import Idealize.ShloMosaic.Lib.Tactic

noncomputable section

namespace Cert.KernelIdeal.LossValue

open Idealize.ShloMosaic Idealize.ShloMosaic.TcCoe Idealize.SL.Sem Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- CASE B (a middle point): the accumulator ends at the accumulating store's value over what it held. -/
theorem scratch_B (c : Dev nD) (i : grid0.Coords) (arg2 : Memref sig .tc .vmem S1x9216x96 .f32) (harg2 : arg2.IsWhole) (arg3 : Memref sig .tc .vmem S1x9216x96 .f32) (harg3 : arg3.IsWhole) (arg4 : Memref sig .tc .vmem S1x1x96 .f32) (harg4 : arg4.IsWhole) (arg5 : Memref sig .tc .vmem S1x96 .f32) (harg5 : arg5.IsWhole) (hc0 : ¬cond0_0 i) (hc1 : ¬cond0_1 i)
    (x0 x1 : Vec F S1x9216x96 .f32) (xs0 : Vec F S1x96 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero zero2]
  simp only [View.readAt_eq_ld, harg2.read_unread, harg3.read_unread, harg5.read_unread,
    View.ld_unit_zero (S := S1x9216x96) zero3, View.ld_unit_zero (S := S1x96) zero2]

/-- CASE A (a core's first point): the accumulator is zeroed, read back, and ends at the accumulating store's
    value over the zeros. -/
theorem scratch_A (c : Dev nD) (i : grid0.Coords) (arg2 : Memref sig .tc .vmem S1x9216x96 .f32) (harg2 : arg2.IsWhole) (arg3 : Memref sig .tc .vmem S1x9216x96 .f32) (harg3 : arg3.IsWhole) (arg4 : Memref sig .tc .vmem S1x1x96 .f32) (harg4 : arg4.IsWhole) (arg5 : Memref sig .tc .vmem S1x96 .f32) (harg5 : arg5.IsWhole) (hc0 : cond0_0 i) (hc1 : ¬cond0_1 i)
    (x0 x1 : Vec F S1x9216x96 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x96) zero2, View.readCov_unit_zero (S := S1x96) _ zero2]
  simp only [View.readAt_eq_ld, harg2.read_unread, harg3.read_unread,
    View.ld_unit_zero (S := S1x9216x96) zero3]

/-- CASE C (a core's last point): the accumulator as in case B, -/
theorem scratch_C (c : Dev nD) (i : grid0.Coords) (arg2 : Memref sig .tc .vmem S1x9216x96 .f32) (harg2 : arg2.IsWhole) (arg3 : Memref sig .tc .vmem S1x9216x96 .f32) (harg3 : arg3.IsWhole) (arg4 : Memref sig .tc .vmem S1x1x96 .f32) (harg4 : arg4.IsWhole) (arg5 : Memref sig .tc .vmem S1x96 .f32) (harg5 : arg5.IsWhole) (hc0 : ¬cond0_0 i) (hc1 : cond0_1 i)
    (x0 x1 : Vec F S1x9216x96 .f32) (xs0 : Vec F S1x96 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zero2]
  simp only [View.readAt_eq_ld, harg2.read_unread, harg3.read_unread, harg5.read_unread,
    View.ld_unit_zero (S := S1x9216x96) zero3, View.ld_unit_zero (S := S1x96) zero2]

/-- and the output block at the final store's value of that accumulator. -/
theorem output_C (c : Dev nD) (i : grid0.Coords) (arg2 : Memref sig .tc .vmem S1x9216x96 .f32) (harg2 : arg2.IsWhole) (arg3 : Memref sig .tc .vmem S1x9216x96 .f32) (harg3 : arg3.IsWhole) (arg4 : Memref sig .tc .vmem S1x1x96 .f32) (harg4 : arg4.IsWhole) (arg5 : Memref sig .tc .vmem S1x96 .f32) (harg5 : arg5.IsWhole) (hc0 : ¬cond0_0 i) (hc1 : cond0_1 i)
    (x0 x1 : Vec F S1x9216x96 .f32) (xs0 : Vec F S1x96 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zero3, View.readCov_unit_zero (S := S1x96) _ zero2]
  simp only [View.readAt_eq_ld, harg2.read_unread, harg3.read_unread, harg5.read_unread,
    View.ld_unit_zero (S := S1x9216x96) zero3, View.ld_unit_zero (S := S1x96) zero2]

end Cert.KernelIdeal.LossValue

end
-- ==== Proof.Accumulate.lean ====
/-
  The accumulator across a core's 32 points is a fold of the accumulating store.

  The generated frame states what the scratch accumulator and the output block hold after each grid point by
  recursion on the point over the three cases' found pieces. Read as payloads: at a point ≡ 0 (mod 32) the
  accumulator restarts from zeros plus that point's ratio; at every other point it is the accumulating store
  applied to what the point before left; and at a point ≡ 31 (mod 32) the output block is the final store's value
  of the accumulator. So at any point the accumulator is the fold over its core's run of points so far.
-/
import proofs.«134564_g78099685310900_feedfinal_268_7_alg».proof.Proof.Gen.KernelIdeal.Frame
import proofs.«134564_g78099685310900_feedfinal_268_7_alg».proof.Proof.Pieces
import Idealize.ShloMosaic.Lib.Pipeline.Value

noncomputable section

namespace Cert.KernelIdeal.LossValue

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The accumulator after a core's first point: the accumulating store over the zeros. -/
def accReset (c : Dev nD) (n : ℕ) (h : n < cfg0.N) : Vec F S1x96 .f32 :=
  k0_pay2 (iblk m c 0 ⟨n, h⟩) (iblk m c 1 ⟨n, h⟩) (k0_pay1 (F := F))

/-- The accumulator after a later point, from what the point before left. -/
def accStep (c : Dev nD) (n : ℕ) (h : n < cfg0.N) (acc : Vec F S1x96 .f32) : Vec F S1x96 .f32 :=
  k0_pay2 (iblk m c 0 ⟨n, h⟩) (iblk m c 1 ⟨n, h⟩) acc

theorem scratch_reset (c : Dev nD) (n : ℕ) (h : n < cfg0.N) (h0 : n % 32 = 0) :
    (outsAt0 m c n h).2 = accReset m c n h := by
  have h1 : ¬(⟨n, h⟩ : Fin cfg0.N).val % 32 = 31 := by dsimp only; omega
  rw [outsAt0_A m c ⟨n, h⟩ h0 h1]
  exact scratch_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩)

theorem scratch_step (c : Dev nD) (n : ℕ) (h : n + 1 < cfg0.N) (hne : ¬(n + 1) % 32 = 0) :
    (outsAt0 m c (n + 1) h).2 = accStep m c (n + 1) h (outsAt0 m c n (Nat.lt_of_succ_lt h)).2 := by
  by_cases h1 : (n + 1) % 32 = 31
  · rw [outsAt0_C m c ⟨n + 1, h⟩ hne h1]
    exact scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hne ((hcond0_0 ⟨n + 1, h⟩).mp hh)) ((hcond0_1 ⟨n + 1, h⟩).mpr h1)
      (iblk m c 0 ⟨n + 1, h⟩) (iblk m c 1 ⟨n + 1, h⟩)
      (outsAt0 m c n (Nat.lt_of_succ_lt h)).2
  · rw [outsAt0_B m c ⟨n + 1, h⟩ hne h1]
    exact scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hne ((hcond0_0 ⟨n + 1, h⟩).mp hh)) (fun hh => h1 ((hcond0_1 ⟨n + 1, h⟩).mp hh))
      (iblk m c 0 ⟨n + 1, h⟩) (iblk m c 1 ⟨n + 1, h⟩)
      (outsAt0 m c n (Nat.lt_of_succ_lt h)).2

/-- THE ACCUMULATOR AT ANY POINT is the fold over its core's run of points up to it. -/
theorem scratch_fold (c : Dev nD) (t : ℕ) (ht : t < cfg0.N) (h' : 32 * (t / 32) + t % 32 < cfg0.N) :
    (outsAt0 m c t ht).2 = Pipeline.accAt (accReset m c) (accStep m c) (32 * (t / 32)) (t % 32) h' :=
  Pipeline.eq_accAt_of_mod (fun n h => (outsAt0 m c n h).2) 32 (accReset m c) (accStep m c)
    (fun n h h0 => scratch_reset m c n h h0) (fun n h hne => scratch_step m c n h hne) (by decide) t ht h'

/-- From a pair's two components: if the first is `f` of what the second is, the pair's first is `f` of its second. -/
theorem fst_eq_of_pair {α β : Type} {P : α × β} {A : α} {B : β} (e : P = (A, B)) (f : β → α) {Z : β}
    (hA : A = f Z) (hB : B = Z) : P.1 = f P.2 := by
  subst e
  subst hB
  exact hA

/-- THE OUTPUT BLOCK AT A CORE'S LAST POINT is the final store's value of the accumulator there. -/
theorem output_last (c : Dev nD) (t : Fin cfg0.N) (h1 : t.val % 32 = 31) :
    (outsAt0 m c t.val t.isLt).1 = k0_pay3 (outsAt0 m c t.val t.isLt).2 :=
  have h0 : ¬t.val % 32 = 0 := by omega
  fst_eq_of_pair (outsAt0_C m c t h0 h1) k0_pay3
    (output_C c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2)
    (scratch_C c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t)
      (outsAt0 m c (t.val - 1) (Nat.lt_of_le_of_lt (Nat.sub_le _ _) t.isLt)).2)

end Cert.KernelIdeal.LossValue

end
-- ==== Proof.LossLaw.lean ====
/-
  The scalar law that joins the two programs, on the extended reals.

  Per channel the kernel forms `a / b` (a = the sum of squared differences, b = the sum of absolute
  labels) and the reference forms `(a / N) / (4 · (b / N))` with N = 96³ = 884736 the number of voxels of a
  channel. The normalizers cancel: the second is the first times 1/4, for EVERY pair of extended reals — for a
  real nonzero b by associativity, for an infinite b both are 0, and for b = 0 both are the infinity of a's
  sign (or the documented value ⊥ at 0/0), which a positive real factor fixes. A nonnegative real factor also
  distributes over every sum of extended reals, infinite terms included, so the reference's
  `(Σ over 64 channels of ratio/4) / 16` is the kernel's two half sums, each times 1/64, added.
  No finiteness of the inputs is used anywhere.
-/
import Idealize.ShloMosaic.PureOps.Ideal

noncomputable section

namespace Cert.LossLaw

open Idealize.ShloMosaic

/-! ## The float words the two programs spell, as the reals they denote -/

theorem ofBits_zero : Ideal.ofBits .f32 0x00000000#32 = 0 := by
  simp [Ideal.ofBits, Ideal.ieee]

/-- 884736.0 = 96³, the reference's divisor of both means. -/
theorem ofBits_voxels : Ideal.ofBits .f32 0x49580000#32 = ((884736 : ℝ) : EReal) := by
  simp [Ideal.ofBits, Ideal.ieee, -EReal.coe_mul]; norm_num

/-- 4.0, the reference's channel count. -/
theorem ofBits_four : Ideal.ofBits .f32 0x40800000#32 = ((4 : ℝ) : EReal) := by
  simp [Ideal.ofBits, Ideal.ieee, -EReal.coe_mul]; norm_num

/-- 16.0, the reference's batch size. -/
theorem ofBits_sixteen : Ideal.ofBits .f32 0x41800000#32 = ((16 : ℝ) : EReal) := by
  simp [Ideal.ofBits, Ideal.ieee, -EReal.coe_mul]; norm_num

/-- 0.015625 = 2⁻⁶, the kernel's factor 1/(16·4): an exact dyadic. -/
theorem ofBits_inv64 : Ideal.ofBits .f32 0x3C800000#32 = ((1 / 64 : ℝ) : EReal) := by
  simp [Ideal.ofBits, Ideal.ieee, -EReal.coe_mul]; norm_num

/-! ## A positive real factor moves through the quotient, at every extended real -/

theorem pos_mul_coe_iff (x : EReal) {c : ℝ} (hc : 0 < c) : 0 < x * (c : EReal) ↔ 0 < x := by
  have hc' : (0 : EReal) < (c : EReal) := EReal.coe_pos.2 hc
  rw [EReal.mul_pos_iff]
  constructor
  · rintro (⟨h, -⟩ | ⟨-, h⟩)
    · exact h
    · exact absurd h (not_lt.2 hc'.le)
  · intro h; exact Or.inl ⟨h, hc'⟩

/-- The quotient by zero — the infinity of the numerator's sign — is fixed by a positive real factor. -/
theorem sign_mul_coe (x : EReal) {c : ℝ} (hc : 0 < c) :
    (if 0 < x then (⊤ : EReal) else ⊥) * (c : EReal) = if 0 < x then ⊤ else ⊥ := by
  split_ifs
  · exact EReal.top_mul_coe_of_pos hc
  · exact EReal.bot_mul_coe_of_pos hc

/-- A positive real factor of the numerator comes out of the quotient. -/
theorem div_mul_coe_left (x y : EReal) {c : ℝ} (hc : 0 < c) :
    Ideal.div (x * (c : EReal)) y = Ideal.div x y * (c : EReal) := by
  unfold Ideal.div
  by_cases hy : y = 0
  · rw [if_pos hy, if_pos hy, sign_mul_coe x hc]
    simp only [pos_mul_coe_iff x hc]
  · rw [if_neg hy, if_neg hy, mul_right_comm]

/-- A positive real factor of the denominator comes out of the quotient as its reciprocal. -/
theorem div_mul_coe_right (x y : EReal) {c : ℝ} (hc : 0 < c) :
    Ideal.div x (y * (c : EReal)) = Ideal.div x y * ((1 / c : ℝ) : EReal) := by
  have hc0 : (c : EReal) ≠ 0 := by exact_mod_cast hc.ne'
  unfold Ideal.div
  by_cases hy : y = 0
  · rw [if_pos hy, if_pos (by rw [hy, zero_mul]), sign_mul_coe x (one_div_pos.2 hc)]
  · rw [if_neg hy, if_neg (mul_ne_zero hy hc0), EReal.mul_inv, ← mul_assoc, one_div, EReal.coe_inv]

/-- THE PER-CHANNEL LAW: dividing both sums by the voxel count and the second by the channel count as well
    leaves the plain quotient times 1/4. -/
theorem normalizers_cancel (a b : EReal) :
    Ideal.div (Ideal.div a ((884736 : ℝ) : EReal)) (((4 : ℝ) : EReal) * Ideal.div b ((884736 : ℝ) : EReal))
      = Ideal.div a b * ((1 / 4 : ℝ) : EReal) := by
  have hN : (884736 : ℝ) ≠ 0 := by norm_num
  rw [Ideal.div_coe hN a, Ideal.div_coe hN b, mul_comm ((4 : ℝ) : EReal), mul_assoc, ← EReal.coe_mul,
    div_mul_coe_right _ _ (by norm_num : (0 : ℝ) < 1 / 884736 * 4),
    div_mul_coe_left _ _ (by norm_num : (0 : ℝ) < 1 / 884736), mul_assoc, ← EReal.coe_mul]
  congr 2
  norm_num

/-! ## A nonnegative real factor distributes over every sum -/

theorem sum_mul_coe {ι : Type*} (s : Finset ι) (f : ι → EReal) {c : ℝ} (hc : 0 ≤ c) :
    (∑ i ∈ s, f i) * (c : EReal) = ∑ i ∈ s, f i * (c : EReal) := by
  classical
  refine Finset.induction_on s (by simp) (fun a s ha ih => ?_)
  rw [Finset.sum_insert ha, Finset.sum_insert ha,
    EReal.right_distrib_of_nonneg_of_ne_top (EReal.coe_nonneg.2 hc) (EReal.coe_ne_top c), ih]

/-- The sum over the 64 channels, times 1/4, over 16, is the two half sums each times 1/64, added. -/
theorem halves (r : ℕ → EReal) :
    Ideal.div ((∑ t ∈ Finset.range 64, r t) * ((1 / 4 : ℝ) : EReal)) ((16 : ℝ) : EReal)
      = (∑ s ∈ Finset.range 32, r s) * ((1 / 64 : ℝ) : EReal)
        + (∑ s ∈ Finset.range 32, r (32 + s)) * ((1 / 64 : ℝ) : EReal) := by
  have e : (1 / 4 : ℝ) * (1 / 16) = 1 / 64 := by norm_num
  rw [Ideal.div_coe (by norm_num : (16 : ℝ) ≠ 0), mul_assoc, ← EReal.coe_mul, e,
    show Finset.range 64 = Finset.range (32 + 32) from rfl, Finset.sum_range_add,
    EReal.right_distrib_of_nonneg_of_ne_top (EReal.coe_nonneg.2 (by norm_num)) (EReal.coe_ne_top _)]

end Cert.LossLaw

end
-- ==== Proof.KernelValue.lean ====
/-
  The kernel's result is the loss.

  Within a core's run of 32 points the accumulator's fold is zero plus the sum of the points' ratios, which are the
  channels' ratios; the core's last point stores that sum times 2⁻⁶ into its row of the [2, 1, 96] output array,
  and those two blocks are the whole array. The host then adds element (0, 0, 0) and element (1, 0, 0).
-/
import proofs.«134564_g78099685310900_feedfinal_268_7_alg».proof.Proof.Blocks
import proofs.«134564_g78099685310900_feedfinal_268_7_alg».proof.Proof.Accumulate
import proofs.«134564_g78099685310900_feedfinal_268_7_alg».proof.Proof.LossLaw
import Idealize.ShloMosaic.Lib.Pipeline.Value
import Idealize.ShloMosaic.Lib.StableHlo.Run
import Idealize.ShloMosaic.Lib.Tactic

noncomputable section

namespace Cert.KernelIdeal.LossValue

open Idealize.ShloMosaic Idealize.ShloMosaic.TcCoe Idealize.ShloMosaic.ValueIdx Idealize.SL.Sem
open Cert.KernelIdeal Cert.KernelIdeal.Gen Cert.LossSpec Cert.LossLaw
open Idealize.ShloMosaic.Pipeline (Dat)

variable (m : (ℓ : Loc nD τ sig) → Buf (Elt Ideal) ℓ) (ρ : Dev nD → PrngReg)

/-- Channel `n`'s ratio of the two argument arrays. -/
def chanTerm (c : Dev nD) (n : ℕ) : EReal :=
  chanRatio (m ((c : Thread nD τ).loc main_arg0)) (m ((c : Thread nD τ).loc main_arg1)) (chan n)

/-- A core's sum as the accumulator holds it after the core's 32 points, the core's channels starting at `32 q`. -/
def halfSum (c : Dev nD) (q : ℕ) : EReal :=
  Ideal.ofBits .f32 0x00000000#32 + ∑ s ∈ Finset.range 32, chanTerm m c (32 * q + s)

/-- THE FOLD AT AN INDEX: zero plus the ratios of the run's channels so far, at every lane. -/
theorem fold_apply (c : Dev nD) (b j : ℕ) (hj : j ≤ 31) (h : b + j < cfg0.N) (i : S1x96.Idx) :
    Pipeline.accAt (accReset m c) (accStep m c) b j h i
      = Ideal.ofBits .f32 0x00000000#32 + ∑ s ∈ Finset.range (j + 1), chanTerm m c (b + s) :=
  Pipeline.accAt_add_apply (ι := S1x96.Idx) (β := EReal) (accReset m c) (accStep m c)
    (fun _ => Ideal.ofBits .f32 0x00000000#32) (fun n _ => chanTerm m c n) b 31
    (fun hb i => (pay2_apply (iblk m c 0 ⟨b, hb⟩) (iblk m c 1 ⟨b, hb⟩) k0_pay1 i).trans
      (congrArg₂ (· + ·) (pay1_apply i) (ratio_at m c ⟨b, hb⟩)))
    (fun n hn acc i _ _ => (pay2_apply (iblk m c 0 ⟨n, hn⟩) (iblk m c 1 ⟨n, hn⟩) acc i).trans
      (congrArg (acc i + ·) (ratio_at m c ⟨n, hn⟩)))
    j hj h i

/-- The final store at any index of its [1, 1, 96] block: the accumulator's lane times the word 2⁻⁶. -/
theorem last_store_apply (v : FVec Ideal S1x96 .f32) (y : S1x1x96.Idx) :
    k0_pay3 (F := Ideal) v y = v (ix2 0 ⟨(y 2).val, (y 2).isLt⟩) * Ideal.ofBits .f32 0x3C800000#32 := by
  have hy : y = ix3 (n0 := 1) (n1 := 1) (n2 := 96) 0 0 ⟨(y 2).val, (y 2).isLt⟩ := by
    funext a
    match a with
    | ⟨0, _⟩ => exact Fin.ext (by have h0 : (y 0).val < 1 := (y 0).isLt; show (y 0).val = 0; omega)
    | ⟨1, _⟩ => exact Fin.ext (by have h1 : (y 1).val < 1 := (y 1).isLt; show (y 1).val = 0; omega)
    | ⟨2, _⟩ => rfl
  exact (congrArg (k0_pay3 (F := Ideal) v) hy).trans (pay3_apply v _)

/-- What the output array ends holding: row `q` is core `q`'s sum times the word 2⁻⁶, in every lane. -/
def outArr (c : Dev nD) : S2x1x96.Idx → EReal := fun i => halfSum m c (i 0).val * Ideal.ofBits .f32 0x3C800000#32

/-- The output window's printed index map, decided over the grid: point `t` is on block (t / 32, 0, 0). -/
theorem idx_out : ∀ t : Fin cfg0.N, win0_2.index t (0 : Fin 3) = t.val / 32 ∧ win0_2.index t (1 : Fin 3) = 0
    ∧ win0_2.index t (2 : Fin 3) = 0 :=
  (by decide +kernel : ∀ t : Fin grid0.N, _)

/-- WHAT A CORE'S LAST POINT WRITES BACK is its block of `outArr`. -/
theorem flushed_eq (c : Dev nD) (t : Fin cfg0.N) (hf : (cfg0.win 2).flush t = true) :
    (dats m 0 c).flushed 2 t = ((cfg0.win 2).blk t).view.read (Elt Ideal) (outArr m c) := by
  have h31 : t.val % 32 = 31 := (flush0_2 t).mp hf
  have h' : 32 * (t.val / 32) + t.val % 32 < cfg0.N := by rw [Nat.div_add_mod]; exact t.isLt
  obtain ⟨e0, e1, e2⟩ := idx_out t
  show (cfg0.win 2).cut (grid0.coords t) ((dats m 0 c).after 2 t) = _
  rw [after0_2, output_last m c t h31]
  funext y
  rw [View.read_apply]
  refine (last_store_apply _ y).trans ?_
  rw [scratch_fold m c t.val t.isLt h', fold_apply m c _ _ (by omega) h']
  have hemb : ((((cfg0.win 2).blk t).view.emb y) 0).val = t.val / 32 := by
    show win0_2.index t (0 : Fin 3) * 1 + 1 * (y 0).val = t.val / 32
    have h0 : (y 0).val < 1 := (y 0).isLt
    omega
  show _ = halfSum m c ((((cfg0.win 2).blk t).view.emb y) 0).val * Ideal.ofBits .f32 0x3C800000#32
  rw [hemb, h31]
  rfl

/-- An index of the output array is in point `t`'s block iff each coordinate is in the block's range on its axis. -/
theorem mem_blk (t : Fin cfg0.N) (i : S2x1x96.Idx) :
    i ∈ ((cfg0.win 2).blk t).view.set ↔ ∀ a : Fin 3, win0_2.index t a * S1x1x96.size a ≤ (i a).val
      ∧ (i a).val < win0_2.index t a * S1x1x96.size a + S1x1x96.size a := by
  show i ∈ ((View.whole main_v2).slice (win0_2.rect t)).set ↔ _
  rw [View.set_slice_whole, Rect.mem_set_unit]
  exact Iff.rfl

/-- Every index of the output array is in the block its core's last point writes back. -/
theorem covered (i : S2x1x96.Idx) :
    ∃ t : Fin cfg0.N, (cfg0.win 2).flush t = true ∧ i ∈ ((cfg0.win 2).blk t).view.set := by
  have hN : cfg0.N = 64 := N_0
  have hi0 : (i 0).val < 2 := (i 0).isLt
  have hi1 : (i 1).val < 1 := (i 1).isLt
  have hi2 : (i 2).val < 96 := (i 2).isLt
  obtain ⟨t, ht⟩ : ∃ t : Fin cfg0.N, t.val = 32 * (i 0).val + 31 := ⟨⟨32 * (i 0).val + 31, by rw [hN]; omega⟩, rfl⟩
  obtain ⟨e0, e1, e2⟩ := idx_out t
  refine ⟨t, (flush0_2 t).mpr (by omega), ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 96 ≤ (i 2).val ∧ (i 2).val < win0_2.index t (2 : Fin 3) * 96 + 96
    omega

/-- THE OUTPUT ARRAY after the run. -/
theorem final_out (c : Dev nD) : (dats m 0 c).arrAt 2 cfg0.N = outArr m c :=
  (dats m 0 c).arrAt_eq_of_cover 2 (outArr m c) (fun t hf => flushed_eq m c t hf) covered

/-- The host's tail read at its one index: element (0, 0, 0) plus element (1, 0, 0) of the array it slices. -/
theorem tail_read (A : FVec Ideal S2x1x96 .f32) (i : S1.Idx) :
    shapeCast S1 (addf
        (shapeCast S_ (extractStridedSlice S1x1x1 ![0, 0, 0] A slices_S2x1x96_S1x1x1_0_0_0) shapeCasts_S1x1x1_S_)
        (shapeCast S_ (extractStridedSlice S1x1x1 ![1, 0, 0] A slices_S2x1x96_S1x1x1_1_0_0) shapeCasts_S1x1x1_S_))
      shapeCasts_S_S1 i
      = A (ix3 0 0 0) + A (ix3 1 0 0) := by
  have r0 : ∀ W : FVec Ideal S1x1x1 .f32, shapeCast S_ W shapeCasts_S1x1x1_S_ ix0 = W (ix3 0 0 0) := fun W =>
    shapeCast_apply W shapeCasts_S1x1x1_S_ ix0 (ix3 0 0 0) (by
      rw [Shape.rowMajor_val_three]
      exact Eq.symm ((Shape.rowMajorPi_zero _ _).trans (by rfl)))
  rw [shapeCast_apply _ shapeCasts_S_S1 i ix0 (by
    have h0 : (i 0).val < 1 := (i 0).isLt
    rw [Shape.rowMajor_val_one]
    exact (Shape.rowMajorPi_zero _ _).trans (by omega))]
  show shapeCast S_ _ shapeCasts_S1x1x1_S_ ix0 + shapeCast S_ _ shapeCasts_S1x1x1_S_ ix0 = _
  rw [r0, r0]
  exact congrArg₂ (· + ·)
    (extractStridedSlice_apply ![0, 0, 0] A slices_S2x1x96_S1x1x1_0_0_0 (ix3 0 0 0) (ix3 0 0 0)
      (fun a => by match a with | ⟨0, _⟩ => rfl | ⟨1, _⟩ => rfl | ⟨2, _⟩ => rfl))
    (extractStridedSlice_apply ![1, 0, 0] A slices_S2x1x96_S1x1x1_1_0_0 (ix3 0 0 0) (ix3 1 0 0)
      (fun a => by match a with | ⟨0, _⟩ => rfl | ⟨1, _⟩ => rfl | ⟨2, _⟩ => rfl))

/-- THE HOST TAIL: the two rows' first elements, added. -/
theorem tail_eq (c : Dev nD) :
    (Pipeline.afterTail₀ cfgs (dats m) 0 (V0 m) [hostOps1] c main_v8 : S1.Idx → EReal)
      = fun _ => outArr m c (ix3 0 0 0) + outArr m c (ix3 1 0 0) := by
  have hA : (Pipeline.withArrays (cfgs 0).spec c (V0 m c) (fun w => (dats m 0 c).arrAt w (cfgs 0).N)
      (Proc.tc.devRef main_v2) : S2x1x96.Idx → EReal) = outArr m c :=
    (Pipeline.withArrays_arr spec0 launch0.win.arr_inj c _ _ 2).trans (final_out m c)
  unfold Pipeline.afterTail₀
  show StableHlo.after hostOps1 _ (Proc.devRef .tc main_v8) = _
  after_results
  rw [hA]
  funext i
  exact tail_read (outArr m c) i

/-- The two rows' first elements, added, are the loss. -/
theorem rows_sum (c : Dev nD) :
    outArr m c (ix3 0 0 0) + outArr m c (ix3 1 0 0)
      = lossVal (m ((c : Thread nD τ).loc main_arg0)) (m ((c : Thread nD τ).loc main_arg1)) := by
  show halfSum m c 0 * Ideal.ofBits .f32 0x3C800000#32 + halfSum m c 1 * Ideal.ofBits .f32 0x3C800000#32 = _
  unfold halfSum lossVal chanTerm
  simp only [ofBits_zero, ofBits_inv64, zero_add, Nat.mul_zero, Nat.mul_one, Nat.zero_add]

/-- THE KERNEL'S RUN, READ: the result holds the loss, the arguments are unchanged. -/
theorem run : θ_run defs (onTc (τ := τ) (main (F := Ideal))) ⟨m, fun _ => 0, ρ⟩ fun r => ∀ c : Dev nD,
      r.2.mem ((c : Thread nD τ).loc main_v8)
        = (fun _ => lossVal (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v8 (Pipeline.mem_restRefs_of main_v8 (by decide) (by decide))).trans
        ((tail_eq m c).trans (funext fun _ => rows_sum m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.LossValue

end
-- ==== Proof.RefValue.lean ====
/-
  The reference's result is the loss.

  The reference divides each channel's two sums by the voxel count 96³, multiplies the second by the channel
  count 4, takes the quotient, sums the 64 quotients and divides by the batch size 16. By the per-channel law
  each quotient is the plain ratio times 1/4; a nonnegative real factor comes out of the sum; and the sum over
  the channel grid, taken in channel order, splits into its two halves.
-/
import proofs.«134564_g78099685310900_feedfinal_268_7_alg».proof.Proof.Gen.ReferenceIdeal.Read
import proofs.«134564_g78099685310900_feedfinal_268_7_alg».proof.Proof.ChannelSums
import proofs.«134564_g78099685310900_feedfinal_268_7_alg».proof.Proof.LossLaw
import Idealize.ShloMosaic.Lib.ValueIdx
import Idealize.ShloMosaic.Lib.Pipeline.Value
import Idealize.ShloMosaic.PureOps.Ideal.Laws

noncomputable section

namespace Cert.ReferenceIdeal.LossValue

open Idealize.ShloMosaic Idealize.ShloMosaic.ValueIdx Cert.ReferenceIdeal Cert.ReferenceIdeal.Read
open Cert.LossSpec Cert.LossLaw

/-- The sum of squared differences per channel, as the host computes it. -/
theorem v2_apply (X L : FVec Ideal S16x4x96x96x96 .f32) (j : S16x4.Idx) :
    val_main_v2 (F := Ideal) X L j = Ideal.ofBits .f32 0x00000000#32 + chanSq X L j := by
  unfold val_main_v2
  simp only [Host.reduceAdd, Ideal.hostReduceAdd_def]
  exact hostSum_eq _ _ _ j

/-- The sum of absolute labels per channel, as the host computes it. -/
theorem v6_apply (L : FVec Ideal S16x4x96x96x96 .f32) (j : S16x4.Idx) :
    val_main_v6 (F := Ideal) L j = Ideal.ofBits .f32 0x00000000#32 + chanAbs L j := by
  unfold val_main_v6
  simp only [Host.reduceAdd, Ideal.hostReduceAdd_def]
  exact hostSum_eq _ _ _ j

/-- One channel's term of the reference's sum: the channel's ratio times 1/4. -/
theorem v11_apply (X L : FVec Ideal S16x4x96x96x96 .f32) (j : S16x4.Idx) :
    val_main_v11 (F := Ideal) X L j = chanRatio X L j * ((1 / 4 : ℝ) : EReal) := by
  rw [val_main_v11_apply, val_main_v4_apply, val_main_v10_apply, val_main_v8_apply, val_main_v3_apply,
    val_main_v7_apply, val_main_v9_apply, val_main_cst_0_apply, val_main_cst_2_apply, val_main_cst_3_apply,
    v2_apply, v6_apply]
  simp only [Ideal.hostDivf_def, Ideal.mulf_def, Ideal.ofBits_def, ofBits_zero, ofBits_voxels, ofBits_four, zero_add]
  exact normalizers_cancel _ _

/-- THE REFERENCE'S RESULT, at its one index. -/
theorem result_eq (X L : FVec Ideal S16x4x96x96x96 .f32) (i : S1.Idx) :
    val_main_v14 (F := Ideal) X L i = lossVal X L := by
  unfold val_main_v14
  rw [shapeCast_apply _ _ i ix0 (by
    have h0 : (i 0).val < 1 := (i 0).isLt
    rw [Shape.rowMajor_val_one]
    exact (Shape.rowMajorPi_zero _ _).trans (by omega))]
  rw [val_main_v13_apply, val_main_v12_apply, val_main_cst_5_apply, val_main_cst_4_apply]
  simp only [v11_apply, Ideal.hostDivf_def, Ideal.ofBits_def, ofBits_zero, ofBits_sixteen, zero_add]
  rw [← sum_mul_coe _ _ (by norm_num : (0 : ℝ) ≤ 1 / 4), sum_chan, halves]
  rfl

end Cert.ReferenceIdeal.LossValue

end
-- ==== Proof.lean ====
/-
  A per-(batch, channel) normalized squared-error loss over two f32[16, 4, 96, 96, 96] arrays, input `x` and
  label `l`: with a_k = Σ (x − l)² and b_k = Σ |l| over the 96³ voxels of channel k (k = 4·batch + channel),

    reference :  ( Σ_k (a_k / 96³) / (4 · (b_k / 96³)) ) / 16                  (means, then the quotient, then a mean)
    kernel    :  ( Σ_{k < 32} a_k / b_k ) · 2⁻⁶  +  ( Σ_{32 ≤ k < 64} a_k / b_k ) · 2⁻⁶   (one half per core, then added)

  On the extended reals the two are equal for EVERY pair of inputs: the normalizers cancel in each channel's
  quotient at every extended real, zero and infinite denominators included (the quotient by zero is the infinity
  of the numerator's sign, which a positive real factor fixes), and a nonnegative real factor distributes over
  every sum of extended reals. The precondition (finite inputs) is not used by the value claim.

  The kernel side: each grid point (core, step) is handed channel 32·core + step of each argument, reshaped to
  [64, 9216, 96]; the body sums the channel's block along rows, then lanes — the whole block, which enumerates
  exactly the voxels the reference's sum over axes 2, 3, 4 projects to that channel; a [1, 96] accumulator, reset
  at a core's first step, gains the channel's ratio in every lane; the core's last step stores it times 2⁻⁶ into
  its row of the [2, 1, 96] output; the host adds elements (0, 0, 0) and (1, 0, 0).

  Modules: LossLaw (the scalar law and the float words), ChannelSums (the channel sums, the block ↔ fibre
  bijection, the reshape read, the channels in order), Payload (the body's three stored values at an index),
  Pieces (each control case's contents as those values), Accumulate (the accumulator as a fold over a core's
  points), Blocks (a point's blocks as the arguments' channel), KernelValue (the output array, the host tail, the
  kernel's run), RefValue (the reference's result). The ideal pass rewrote nothing, so `preserves` is `True`.
-/
import proofs.«134564_g78099685310900_feedfinal_268_7_alg».proof.Defs
import proofs.«134564_g78099685310900_feedfinal_268_7_alg».proof.Proof.Gen.Kernel
import proofs.«134564_g78099685310900_feedfinal_268_7_alg».proof.Proof.Gen.Kernel.Skeleton
import proofs.«134564_g78099685310900_feedfinal_268_7_alg».proof.Proof.Gen.Kernel.Launch
import proofs.«134564_g78099685310900_feedfinal_268_7_alg».proof.Proof.Gen.Kernel.Points
import proofs.«134564_g78099685310900_feedfinal_268_7_alg».proof.Proof.Gen.Kernel.Frame
import proofs.«134564_g78099685310900_feedfinal_268_7_alg».proof.Proof.Gen.KernelIdeal
import proofs.«134564_g78099685310900_feedfinal_268_7_alg».proof.Proof.Gen.KernelIdeal.Skeleton
import proofs.«134564_g78099685310900_feedfinal_268_7_alg».proof.Proof.Gen.KernelIdeal.Launch
import proofs.«134564_g78099685310900_feedfinal_268_7_alg».proof.Proof.Gen.KernelIdeal.Points
import proofs.«134564_g78099685310900_feedfinal_268_7_alg».proof.Proof.Gen.KernelIdeal.Frame
import proofs.«134564_g78099685310900_feedfinal_268_7_alg».proof.Proof.Gen.ReferenceIdeal
import proofs.«134564_g78099685310900_feedfinal_268_7_alg».proof.Proof.Gen.Pre_finite_inputs
import proofs.«134564_g78099685310900_feedfinal_268_7_alg».proof.Proof.Gen.ReferenceIdeal.Run
import proofs.«134564_g78099685310900_feedfinal_268_7_alg».proof.Proof.Gen.ReferenceIdeal.Read
import proofs.«134564_g78099685310900_feedfinal_268_7_alg».proof.Proof.KernelValue
import proofs.«134564_g78099685310900_feedfinal_268_7_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories agreeing on the two arguments, both programs end holding the loss of those arguments. -/
theorem algebraic : Cert.algebraic_KernelIdeal_ReferenceIdeal := by
  intro m ρ m' ρ' _ hagree
  refine ⟨fun c _ => Cert.LossSpec.lossVal
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  funext i
  exact Cert.ReferenceIdeal.LossValue.result_eq _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
